-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x4096 32) (main_arg2 : FVec F S4096x1 .f32) (main_arg3 : FVec F S4096x1 .f32) (main_arg4 : FVec F S4096x4096 .f32) (main_arg5 : IVec S4096x4096 1) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg6 main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S256x4096 : Shape := ⟨2, ![256, 4096]⟩
abbrev S256x1 : Shape := ⟨2, ![256, 1]⟩
abbrev S256 : Shape := ⟨1, ![256]⟩
abbrev S256x256 : Shape := ⟨2, ![256, 256]⟩
abbrev S1x256 : Shape := ⟨2, ![1, 256]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096x4096, .f32⟩
  | .hbm, ⟨5, _⟩ => ⟨S4096x4096, .i1⟩
  | .hbm, ⟨6, _⟩ => ⟨S4096, .f32⟩
  | .hbm, ⟨7, _⟩ => ⟨S8192x4096, .f32⟩
  | .hbm, ⟨8, _⟩ => ⟨S4096x4096, .i32⟩
  | .hbm, ⟨9, _⟩ => ⟨S8192x4096, .f32⟩
  | .hbm, ⟨10, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x4096, .f32⟩
  | .local _ .vmem, ⟨5, _⟩ => ⟨S256x4096, .f32⟩
  | .local _ .vmem, ⟨6, _⟩ => ⟨S256x4096, .i32⟩
  | .local _ .vmem, ⟨7, _⟩ => ⟨S256x4096, .i32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256, .f32⟩
  | .local _ .vmem, ⟨13, _⟩ => ⟨S256, .f32⟩
  | .local _ .vmem, ⟨14, _⟩ => ⟨S256x256, .f32⟩
  | .local _ .vmem, ⟨15, _⟩ => ⟨S256x256, .f32⟩
  | .local _ .vmem, ⟨16, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x2048x4096_S8192x4096 : S4x2048x4096.ShapeCasts S8192x4096
  natLt_1_32 : 1 < 32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  bitsLt_bf16_f32 : FTy.bits .bf16 < FTy.bits .f32
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  inb_S256_S256_0 : ∀ a, (![0] : Fin 1 → Nat) a + S256.size a ≤ S256.size a
  h_S256 : 0 < S256.numel
  shapeCasts_S256_S1x256 : S256.ShapeCasts S1x256
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .i32 = 32 ∨ (Rect.block (s := S4096x4096) S256x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S4096.size a
  hwx0_6 : ∀ i : grid0.Coords, EltTy.bits .f32 = 32 ∨ (Rect.block (s := S4096) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S8192x4096.size a
  hwx0_7 : ∀ i : grid0.Coords, EltTy.bits .f32 = 32 ∨ (Rect.block (s := S8192x4096) S256x256.size (cc0_transform_7 i) (hinb0_7 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S1x1x4096 : Shape := ⟨3, ![1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096x4096, .f32⟩
  | .hbm, ⟨5, _⟩ => ⟨S4096x4096, .i1⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4x2048x4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.Spec.lean ====
/-
  The specification of the result, index by index, on the extended reals.

  An output channel `o` of the linear layer has, at input feature `k`, the effective weight
    W(o, k) = (wq(o, k) − qzero(o)) · qscale(o)   where mask(o, k) is set,
              theta(o, k)                          where it is not,
  the integer `wq(o, k)` read signed, exactly.  The result at token `(b, s)` and channel `o` is
    Y(b, s, o) = Σₖ x(b, s, k) · W(o, k) + bias(o).

  Two spellings of the selection meet here.  One selects by the mask bit; the other blends, with the bit `m`
  read as the number 0 or 1: `m · d + (1 − m) · t`.  On the extended reals `0 · y = 0` for every `y`
  (infinite ones included), `1 · y = y`, `1 − 1 = 0` and `1 − 0 = 1`, so the blend is the selection at every
  pair of extended reals: no finiteness is needed.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.ResuLinear

open Idealize.ShloMosaic Idealize.ShloMosaic.ValueIdx

/-- The dequantized weight: the signed integer minus the channel's zero point, times the channel's scale. -/
def deq (w : BitVec 32) (z s : EReal) : EReal := (((w.toInt : ℝ) : EReal) - z) * s

/-- The selection by the mask bit. -/
def pick (b : BitVec 1) (d t : EReal) : EReal := if b = 1#1 then d else t

/-- The effective weight of channel `o` at feature `k`. -/
def weff (wq : (⟨2, ![4096, 4096]⟩ : Shape).Idx → BitVec 32) (qscale qzero : (⟨2, ![4096, 1]⟩ : Shape).Idx → EReal)
    (theta : (⟨2, ![4096, 4096]⟩ : Shape).Idx → EReal) (mask : (⟨2, ![4096, 4096]⟩ : Shape).Idx → BitVec 1)
    (o k : Fin 4096) : EReal :=
  pick (mask (ix2 o k)) (deq (wq (ix2 o k)) (qzero (ix2 o (0 : Fin 1))) (qscale (ix2 o (0 : Fin 1)))) (theta (ix2 o k))

/-- The result at token `(b, s)`, channel `o`. -/
def outAt (x : (⟨3, ![4, 2048, 4096]⟩ : Shape).Idx → EReal) (wq : (⟨2, ![4096, 4096]⟩ : Shape).Idx → BitVec 32)
    (qscale qzero : (⟨2, ![4096, 1]⟩ : Shape).Idx → EReal) (theta : (⟨2, ![4096, 4096]⟩ : Shape).Idx → EReal)
    (mask : (⟨2, ![4096, 4096]⟩ : Shape).Idx → BitVec 1) (bias : (⟨1, ![4096]⟩ : Shape).Idx → EReal)
    (b : Fin 4) (s : Fin 2048) (o : Fin 4096) : EReal :=
  (∑ k : Fin 4096, x (ix3 b s k) * weff wq qscale qzero theta mask o k) + bias (ix1 o)

/-- The whole result array. -/
def out (x : (⟨3, ![4, 2048, 4096]⟩ : Shape).Idx → EReal) (wq : (⟨2, ![4096, 4096]⟩ : Shape).Idx → BitVec 32)
    (qscale qzero : (⟨2, ![4096, 1]⟩ : Shape).Idx → EReal) (theta : (⟨2, ![4096, 4096]⟩ : Shape).Idx → EReal)
    (mask : (⟨2, ![4096, 4096]⟩ : Shape).Idx → BitVec 1) (bias : (⟨1, ![4096]⟩ : Shape).Idx → EReal) :
    (⟨3, ![4, 2048, 4096]⟩ : Shape).Idx → EReal :=
  fun i => outAt x wq qscale qzero theta mask bias (i 0) (i 1) (i 2)

theorem out_apply (x : (⟨3, ![4, 2048, 4096]⟩ : Shape).Idx → EReal) (wq : (⟨2, ![4096, 4096]⟩ : Shape).Idx → BitVec 32)
    (qscale qzero : (⟨2, ![4096, 1]⟩ : Shape).Idx → EReal) (theta : (⟨2, ![4096, 4096]⟩ : Shape).Idx → EReal)
    (mask : (⟨2, ![4096, 4096]⟩ : Shape).Idx → BitVec 1) (bias : (⟨1, ![4096]⟩ : Shape).Idx → EReal)
    (b : Fin 4) (s : Fin 2048) (o : Fin 4096) :
    out x wq qscale qzero theta mask bias (ix3 b s o) = outAt x wq qscale qzero theta mask bias b s o := rfl

/-- A bit is zero or one. -/
theorem bit_cases (b : BitVec 1) : b = 0#1 ∨ b = 1#1 := by
  revert b; decide

/-- The blend `m · d + (1 − m) · t` of the bit read as a number is the selection, at every extended reals. -/
theorem blend_eq_pick (b : BitVec 1) (d t : EReal) :
    ((b.toNat : ℝ) : EReal) * d + (Ideal.ofBits .f32 0x3F800000#32 - ((b.toNat : ℝ) : EReal)) * t = pick b d t := by
  rw [Ideal.ofBits_one_f32]
  rcases bit_cases b with rfl | rfl
  · have h0 : (((0#1 : BitVec 1).toNat : ℝ) : EReal) = 0 := by norm_num
    rw [h0, zero_mul, zero_add, sub_zero, one_mul]
    rfl
  · have h1 : (((1#1 : BitVec 1).toNat : ℝ) : EReal) = 1 := by norm_num
    have h2 : (1 : EReal) - 1 = 0 := by
      rw [← EReal.coe_one, ← EReal.coe_sub, sub_self, EReal.coe_zero]
    rw [h1, one_mul, h2, zero_mul, add_zero]
    rfl

/-- The mask widened to a word and tested against zero is the mask bit. -/
theorem ne_zero_setWidth (b : BitVec 1) : IntOp.cmpi .ne (b.setWidth 32) 0#32 = b := by
  revert b; decide

/-- The selection on the widened mask is the selection by the bit. -/
theorem select_widened (b : BitVec 1) (d t : EReal) :
    Scalar.select (IntOp.cmpi .ne (b.setWidth 32) 0#32) d t = pick b d t := by
  rw [ne_zero_setWidth]; rfl

end Cert.ResuLinear

end
-- ==== Proof.KPay.lean ====
/-
  The two values the body stores, read at an index on the extended reals.

  The weight tile: at row `r` and feature `k` of the tile, the widened mask word tested against zero selects
  between the dequantized weight `(wq − qzero(r)) · qscale(r)` (the integer read signed, the zero point and the
  scale one per row, held in one-column arrays) and `theta`.  Rounding to the narrow format is the identity.

  The output tile: rows of `x` contracted with rows of the weight tile over the shared feature axis
  (`x · Wᵀ`: the second axes of both operands contracted), plus the bias of the column's channel.  At
  `(p, q)` it is `Σₖ x(p, k) · W(q, k) + bias(q)`.
-/
import proofs.«131274_j10977936408699_1_alg».proof.Proof.Gen.KernelIdeal.Skeleton
import proofs.«131274_j10977936408699_1_alg».proof.Proof.LibRowBlocks
import proofs.«131274_j10977936408699_1_alg».proof.Proof.Spec
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.ResuLinear

/-- The weight tile at `(r, k)`. -/
theorem weightTile_apply (wq : Vec Ideal S256x4096 .i32) (qzero qscale : Vec Ideal S256x1 .f32)
    (mask : Vec Ideal S256x4096 .i32) (theta : Vec Ideal S256x4096 .f32) (r : Fin 256) (k : Fin 4096) :
    k0_pay1 (F := Ideal) wq qzero qscale mask theta (ix2 r k)
      = Scalar.select (IntOp.cmpi .ne (mask (ix2 r k)) 0#32)
          (deq (wq (ix2 r k)) (qzero (ix2 r (0 : Fin 1))) (qscale (ix2 r (0 : Fin 1)))) (theta (ix2 r k)) := by
  unfold k0_pay1
  refine (congrFun (shapeCast_self _ _) (ix2 r k)).trans ?_
  show Scalar.select (IntOp.cmpi .ne (mask (ix2 r k)) 0#32)
      (((((wq (ix2 r k)).toInt : ℝ) : EReal) - broadcastTo S256x4096 qzero broadcasts_S256x1_S256x4096 (ix2 r k))
        * broadcastTo S256x4096 qscale broadcasts_S256x1_S256x4096 (ix2 r k)) (theta (ix2 r k)) = _
  have e1 := RowBlocks.broadcastTo_col_apply qzero broadcasts_S256x1_S256x4096 r k
  have e2 := RowBlocks.broadcastTo_col_apply qscale broadcasts_S256x1_S256x4096 r k
  rw [e1, e2]
  rfl

/-- The output tile at `(p, q)`. -/
theorem outTile_apply (x : Vec Ideal S256x4096 .f32) (w : FVec Ideal S256x4096 .bf16) (bias : Vec Ideal S256 .f32)
    (p q : Fin 256) :
    k0_pay2 (F := Ideal) x w bias (ix2 p q) = (∑ k : Fin 4096, x (ix2 p k) * w (ix2 q k)) + bias (ix1 q) := by
  unfold k0_pay2
  show FloatOps.matmul dot_S256x4096_S256x4096_S256x256_1_1_0_0_n_n none
        (truncf .bf16 (shapeCast S256x4096 x shapeCasts_S256x4096_S256x4096) bitsLt_bf16_f32) w
        (constant S256x256 .f32 0x00000000#32) (ix2 p q)
      + broadcastTo S256x256 (shapeCast S1x256 (shapeCast S1x256 bias shapeCasts_S256_S1x256) shapeCasts_S1x256_S1x256)
          broadcasts_S1x256_S256x256 (ix2 p q) = _
  have hm := (Ideal.matmul_constant_zero_apply dot_S256x4096_S256x4096_S256x256_1_1_0_0_n_n none
      (truncf .bf16 (shapeCast S256x4096 x shapeCasts_S256x4096_S256x4096) bitsLt_bf16_f32) w (ix2 p q)).trans
    (RowBlocks.abT_sum dot_S256x4096_S256x4096_S256x256_1_1_0_0_n_n rfl rfl rfl rfl rfl rfl _ _ p q)
  have hb : broadcastTo S256x256 (shapeCast S1x256 (shapeCast S1x256 bias shapeCasts_S256_S1x256) shapeCasts_S1x256_S1x256)
      broadcasts_S1x256_S256x256 (ix2 p q) = bias (ix1 q) :=
    (broadcastTo_1b_ab_apply _ broadcasts_S1x256_S256x256 p q).trans
      ((congrFun (shapeCast_self _ shapeCasts_S1x256_S1x256) (ix2 (0 : Fin 1) q)).trans
        (shapeCast_a_1a_apply bias shapeCasts_S256_S1x256 (0 : Fin 1) q))
  rw [hm, hb, shapeCast_self]
  rfl

end Cert.KernelIdeal.Pay

end
-- ==== Proof.KPieces.lean ====
/-
  What the body leaves, case by case, as the stored values of the blocks it was handed.

  At the first point of a sweep over the row tiles the body rebuilds the weight tile from its five weight-side
  blocks, keeps it in the carried scratch, reads it back and stores the output tile computed from it.  At every
  other point it stores the output tile computed from the weight tile the point before left, and leaves that
  tile as it found it.  Each store covers its whole buffer and each load reads a whole buffer, so what a buffer
  ends holding is the one stored value.
-/
import proofs.«131274_j10977936408699_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First point of a sweep: the scratch ends at the weight tile of the point's weight-side blocks. -/
theorem scratch_first (c : Dev nD) (i : grid0.Coords) (arg2 : Memref sig .tc .vmem S256x4096 .f32) (harg2 : arg2.IsWhole) (arg3 : Memref sig .tc .vmem S256x4096 .i32) (harg3 : arg3.IsWhole) (arg4 : Memref sig .tc .vmem S256x4096 .f32) (harg4 : arg4.IsWhole) (arg5 : Memref sig .tc .vmem S256x4096 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256x4096 .bf16) (harg10 : arg10.IsWhole) (hc0 : cond0_0 i) (x0 : Vec F S256x4096 .f32) (x1 : Vec F S256x4096 .i32) (x2 : Vec F S256x4096 .f32) (x3 : Vec F S256x4096 .i32) (x4 : Vec F S256x1 .f32) (x5 : Vec F S256x1 .f32) (x6 : Vec F S256 .f32) :
    sout0_A_0 c i arg2 harg2 arg3 harg3 arg4 harg4 arg5 harg5 arg6 harg6 arg7 harg7 arg8 harg8 arg9 harg9 arg10 harg10 hc0 x0 x1 x2 x3 x4 x5 x6 = k0_pay1 x1 x5 x4 x3 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg3.read_unread, harg4.read_unread, harg5.read_unread, harg6.read_unread,
    harg7.read_unread, View.ld_unit_zero (S := S256x4096) hz2, View.ld_unit_zero (S := S256x1) hz2]

/-- First point of a sweep: the output tile is computed from the weight tile just rebuilt. -/
theorem out_first (c : Dev nD) (i : grid0.Coords) (arg2 : Memref sig .tc .vmem S256x4096 .f32) (harg2 : arg2.IsWhole) (arg3 : Memref sig .tc .vmem S256x4096 .i32) (harg3 : arg3.IsWhole) (arg4 : Memref sig .tc .vmem S256x4096 .f32) (harg4 : arg4.IsWhole) (arg5 : Memref sig .tc .vmem S256x4096 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256x4096 .bf16) (harg10 : arg10.IsWhole) (hc0 : cond0_0 i) (x0 : Vec F S256x4096 .f32) (x1 : Vec F S256x4096 .i32) (x2 : Vec F S256x4096 .f32) (x3 : Vec F S256x4096 .i32) (x4 : Vec F S256x1 .f32) (x5 : Vec F S256x1 .f32) (x6 : Vec F S256 .f32) :
    out0_A_7 c i arg2 harg2 arg3 harg3 arg4 harg4 arg5 harg5 arg6 harg6 arg7 harg7 arg8 harg8 arg9 harg9 arg10 harg10 hc0 x0 x1 x2 x3 x4 x5 x6 = k0_pay2 x0 (k0_pay1 x1 x5 x4 x3 x2) x6 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2, View.readCov_unit_zero (S := S256x4096) _ hz2]
  simp only [View.readAt_eq_ld, harg2.read_unread, harg3.read_unread, harg4.read_unread, harg5.read_unread,
    harg6.read_unread, harg7.read_unread, harg8.read_unread, View.ld_unit_zero (S := S256x4096) hz2,
    View.ld_unit_zero (S := S256x1) hz2, View.ld_unit_zero (S := S256) hz1]

/-- Any other point: the output tile is computed from the weight tile the point before left. -/
theorem out_later (c : Dev nD) (i : grid0.Coords) (arg2 : Memref sig .tc .vmem S256x4096 .f32) (harg2 : arg2.IsWhole) (arg3 : Memref sig .tc .vmem S256x4096 .i32) (harg3 : arg3.IsWhole) (arg4 : Memref sig .tc .vmem S256x4096 .f32) (harg4 : arg4.IsWhole) (arg5 : Memref sig .tc .vmem S256x4096 .i32) (harg5 : arg5.IsWhole) (arg6 : Memref sig .tc .vmem S256x1 .f32) (harg6 : arg6.IsWhole) (arg7 : Memref sig .tc .vmem S256x1 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256x4096 .bf16) (harg10 : arg10.IsWhole) (hc0 : ¬cond0_0 i) (x0 : Vec F S256x4096 .f32) (x1 : Vec F S256x4096 .i32) (x2 : Vec F S256x4096 .f32) (x3 : Vec F S256x4096 .i32) (x4 : Vec F S256x1 .f32) (x5 : Vec F S256x1 .f32) (x6 : Vec F S256 .f32) (xs0 : Vec F S256x4096 .bf16) :
    out0_B_7 c i arg2 harg2 arg3 harg3 arg4 harg4 arg5 harg5 arg6 harg6 arg7 harg7 arg8 harg8 arg9 harg9 arg10 harg10 hc0 x0 x1 x2 x3 x4 x5 x6 xs0 = k0_pay2 x0 xs0 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  rw [View.canon_unit_zero hz2]
  simp only [View.readAt_eq_ld, harg2.read_unread, harg8.read_unread, harg10.read_unread,
    View.ld_unit_zero (S := S256x4096) hz2, View.ld_unit_zero (S := S256) hz1]

end Cert.KernelIdeal.Pieces

end
-- ==== Proof.KBlocks.lean ====
/-
  The blocks the body is handed, read at an index of the arrays the region finds.

  The grid has 16 × 32 points; point `t` is column tile `n = t / 32` (the output channels) and row tile
  `m = t mod 32` (the tokens).  The token block of `x` at `t` is rows `256 m …` of the [8192, 4096] view; every
  weight-side block (integer weights, theta, widened mask, scale, zero point, bias) is rows `256 n …`; the output
  block is rows `256 m …`, columns `256 n …`.  An entry of a block sits in its array, on each axis, at the block
  index times the block's extent plus its own coordinate.

  Two of the arrays are written by the host before the region: the [8192, 4096] view of `x` (row
  `b · 2048 + s` is token `(b, s)`) and the mask bits widened to words.
-/
import proofs.«131274_j10977936408699_1_alg».proof.Proof.Gen.KernelIdeal.Frame
import proofs.«131274_j10977936408699_1_alg».proof.Proof.LibRowBlocks
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps over the grid: which block of its array each window is on at point `t`. -/
theorem idx_facts : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val / 32 ∧ win0_2.index t (1 : Fin 2) = 0
    ∧ win0_3.index t (0 : Fin 2) = t.val / 32 ∧ win0_3.index t (1 : Fin 2) = 0
    ∧ win0_4.index t (0 : Fin 2) = t.val / 32 ∧ win0_4.index t (1 : Fin 2) = 0
    ∧ win0_5.index t (0 : Fin 2) = t.val / 32 ∧ win0_5.index t (1 : Fin 2) = 0
    ∧ win0_6.index t (0 : Fin 1) = t.val / 32
    ∧ win0_7.index t (0 : Fin 2) = t.val % 32 ∧ win0_7.index t (1 : Fin 2) = t.val / 32 :=
  (by decide +kernel : ∀ t : Fin grid0.N, _)

/-- The token block of `x`. -/
theorem xBlock_apply (c : Dev nD) (t : Fin cfg0.N) (p : Fin 256) (k : Fin 4096) (P : Fin 8192)
    (hP : P.val = 256 * (t.val % 32) + p.val) :
    (iblk m c 0 t : Vec F S256x4096 .f32) (ix2 p k) = V m c main_v0 (ix2 P k) := by
  unfold iblk
  rw [View.read_apply]
  show V m c main_v0 _ = V m c main_v0 _
  refine congrArg (V m c main_v0) (funext fun a => Fin.ext ?_)
  obtain ⟨e0, e1, -⟩ := idx_facts t
  match a with
  | ⟨0, _⟩ => show win0_0.index t (0 : Fin 2) * 256 + 1 * p.val = P.val; rw [e0, hP]; omega
  | ⟨1, _⟩ => show win0_0.index t (1 : Fin 2) * 4096 + 1 * k.val = k.val; rw [e1]; omega

/-- The block of the integer weights. -/
theorem wqBlock_apply (c : Dev nD) (t : Fin cfg0.N) (r : Fin 256) (k : Fin 4096) (O : Fin 4096)
    (hO : O.val = 256 * (t.val / 32) + r.val) :
    (iblk m c 1 t : Vec F S256x4096 .i32) (ix2 r k) = V m c main_arg1 (ix2 O k) := by
  unfold iblk
  rw [View.read_apply]
  show V m c main_arg1 _ = V m c main_arg1 _
  refine congrArg (V m c main_arg1) (funext fun a => Fin.ext ?_)
  obtain ⟨-, -, e0, e1, -⟩ := idx_facts t
  match a with
  | ⟨0, _⟩ => show win0_1.index t (0 : Fin 2) * 256 + 1 * r.val = O.val; rw [e0, hO]; omega
  | ⟨1, _⟩ => show win0_1.index t (1 : Fin 2) * 4096 + 1 * k.val = k.val; rw [e1]; omega

/-- The block of theta. -/
theorem thetaBlock_apply (c : Dev nD) (t : Fin cfg0.N) (r : Fin 256) (k : Fin 4096) (O : Fin 4096)
    (hO : O.val = 256 * (t.val / 32) + r.val) :
    (iblk m c 2 t : Vec F S256x4096 .f32) (ix2 r k) = V m c main_arg4 (ix2 O k) := by
  unfold iblk
  rw [View.read_apply]
  show V m c main_arg4 _ = V m c main_arg4 _
  refine congrArg (V m c main_arg4) (funext fun a => Fin.ext ?_)
  obtain ⟨-, -, -, -, e0, e1, -⟩ := idx_facts t
  match a with
  | ⟨0, _⟩ => show win0_2.index t (0 : Fin 2) * 256 + 1 * r.val = O.val; rw [e0, hO]; omega
  | ⟨1, _⟩ => show win0_2.index t (1 : Fin 2) * 4096 + 1 * k.val = k.val; rw [e1]; omega

/-- The block of the widened mask. -/
theorem maskBlock_apply (c : Dev nD) (t : Fin cfg0.N) (r : Fin 256) (k : Fin 4096) (O : Fin 4096)
    (hO : O.val = 256 * (t.val / 32) + r.val) :
    (iblk m c 3 t : Vec F S256x4096 .i32) (ix2 r k) = V m c main_v1 (ix2 O k) := by
  unfold iblk
  rw [View.read_apply]
  show V m c main_v1 _ = V m c main_v1 _
  refine congrArg (V m c main_v1) (funext fun a => Fin.ext ?_)
  obtain ⟨-, -, -, -, -, -, e0, e1, -⟩ := idx_facts t
  match a with
  | ⟨0, _⟩ => show win0_3.index t (0 : Fin 2) * 256 + 1 * r.val = O.val; rw [e0, hO]; omega
  | ⟨1, _⟩ => show win0_3.index t (1 : Fin 2) * 4096 + 1 * k.val = k.val; rw [e1]; omega

/-- The block of the scales: one column. -/
theorem qscaleBlock_apply (c : Dev nD) (t : Fin cfg0.N) (r : Fin 256) (O : Fin 4096)
    (hO : O.val = 256 * (t.val / 32) + r.val) :
    (iblk m c 4 t : Vec F S256x1 .f32) (ix2 r (0 : Fin 1)) = V m c main_arg2 (ix2 O (0 : Fin 1)) := by
  unfold iblk
  rw [View.read_apply]
  show V m c main_arg2 _ = V m c main_arg2 _
  refine congrArg (V m c main_arg2) (funext fun a => Fin.ext ?_)
  obtain ⟨-, -, -, -, -, -, -, -, e0, e1, -⟩ := idx_facts t
  match a with
  | ⟨0, _⟩ => show win0_4.index t (0 : Fin 2) * 256 + 1 * r.val = O.val; rw [e0, hO]; omega
  | ⟨1, _⟩ => show win0_4.index t (1 : Fin 2) * 1 + 1 * 0 = 0; rw [e1]

/-- The block of the zero points: one column. -/
theorem qzeroBlock_apply (c : Dev nD) (t : Fin cfg0.N) (r : Fin 256) (O : Fin 4096)
    (hO : O.val = 256 * (t.val / 32) + r.val) :
    (iblk m c 5 t : Vec F S256x1 .f32) (ix2 r (0 : Fin 1)) = V m c main_arg3 (ix2 O (0 : Fin 1)) := by
  unfold iblk
  rw [View.read_apply]
  show V m c main_arg3 _ = V m c main_arg3 _
  refine congrArg (V m c main_arg3) (funext fun a => Fin.ext ?_)
  obtain ⟨-, -, -, -, -, -, -, -, -, -, e0, e1, -⟩ := idx_facts t
  match a with
  | ⟨0, _⟩ => show win0_5.index t (0 : Fin 2) * 256 + 1 * r.val = O.val; rw [e0, hO]; omega
  | ⟨1, _⟩ => show win0_5.index t (1 : Fin 2) * 1 + 1 * 0 = 0; rw [e1]

/-- The block of the bias. -/
theorem biasBlock_apply (c : Dev nD) (t : Fin cfg0.N) (q : Fin 256) (O : Fin 4096)
    (hO : O.val = 256 * (t.val / 32) + q.val) :
    (iblk m c 6 t : Vec F S256 .f32) (ix1 q) = V m c main_arg6 (ix1 O) := by
  unfold iblk
  rw [View.read_apply]
  show V m c main_arg6 _ = V m c main_arg6 _
  refine congrArg (V m c main_arg6) (funext fun a => Fin.ext ?_)
  obtain ⟨-, -, -, -, -, -, -, -, -, -, -, -, e0, -⟩ := idx_facts t
  match a with
  | ⟨0, _⟩ => show win0_6.index t (0 : Fin 1) * 256 + 1 * q.val = O.val; rw [e0, hO]; omega

/-- The host's [8192, 4096] view of `x`, as the region finds it. -/
theorem V_tokens (c : Dev nD) :
    (V m c main_v0 : S8192x4096.Idx → Elt F .f32)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The mask bits widened to words by the host, as the region finds them. -/
theorem V_maskWords (c : Dev nD) :
    (V m c main_v1 : S4096x4096.Idx → Elt F .i32) = extui 32 (m ((c : Thread nD τ).loc main_arg5)) natLt_1_32 := by
  show StableHlo.after hostOps0 (fun b => m (c, b)) (Proc.devRef .tc main_v1) = _
  after_results

end Cert.KernelIdeal.Blocks

end
-- ==== Proof.KInv.lean ====
/-
  What the carried weight tile and the output tile hold after every grid point.

  Point `t` is column tile `n = t / 32`, row tile `t mod 32`.  The weight tile is rebuilt where `t mod 32 = 0` and
  kept otherwise, and the weight-side blocks do not move while `n` stays: so after EVERY point `t` the scratch
  holds rows `256 n …` of the effective weight — by induction on the point, the kept case reading the point before,
  which has the same `n`.  The output tile after point `t` is, in both cases, the product of the token block with
  the scratch as the point leaves it, plus the bias block: at `(p, q)`
    Σₖ x(256 (t mod 32) + p, k) · W(256 n + q, k) + bias(256 n + q).
-/
import proofs.«131274_j10977936408699_1_alg».proof.Proof.KPay
import proofs.«131274_j10977936408699_1_alg».proof.Proof.KPieces
import proofs.«131274_j10977936408699_1_alg».proof.Proof.KBlocks

noncomputable section

open scoped BigOperators

namespace Cert.KernelIdeal.Inv

open Cert.KernelIdeal Cert.KernelIdeal.Gen Idealize.ShloMosaic Idealize.ShloMosaic.TcCoe Idealize.SL.Sem
open Idealize.ShloMosaic.ValueIdx Cert.ResuLinear

variable (m : (ℓ : Loc nD τ sig) → Buf (Elt Ideal) ℓ)

/-- The effective weight of channel `O` at feature `k`, over the arrays as the region finds them (the mask as
    widened words). -/
def wk (c : Dev nD) (O k : Fin 4096) : EReal :=
  Scalar.select (IntOp.cmpi .ne (V m c main_v1 (ix2 O k)) 0#32)
    (deq (V m c main_arg1 (ix2 O k)) (V m c main_arg3 (ix2 O (0 : Fin 1))) (V m c main_arg2 (ix2 O (0 : Fin 1))))
    (V m c main_arg4 (ix2 O k))

/-- The [8192, 4096] token view and the bias as the region finds them, as arrays of extended reals. -/
abbrev tok (c : Dev nD) : S8192x4096.Idx → EReal := V m c main_v0
abbrev bia (c : Dev nD) : S4096.Idx → EReal := V m c main_arg6

/-- The result at row `P` of the [8192, 4096] token view and channel `O`. -/
def yk (c : Dev nD) (P : Fin 8192) (O : Fin 4096) : EReal :=
  (∑ k : Fin 4096, tok m c (ix2 P k) * wk m c O k) + bia m c (ix1 O)

/-- The weight tile of the blocks at point `t` is rows `256 (t / 32) …` of the effective weight. -/
theorem tile_at (c : Dev nD) (t : Fin cfg0.N) (r : Fin 256) (k : Fin 4096) (O : Fin 4096)
    (hO : O.val = 256 * (t.val / 32) + r.val) :
    k0_pay1 (F := Ideal) (iblk m c 1 t) (iblk m c 5 t) (iblk m c 4 t) (iblk m c 3 t) (iblk m c 2 t) (ix2 r k)
      = wk m c O k := by
  refine (Pay.weightTile_apply (iblk m c 1 t) (iblk m c 5 t) (iblk m c 4 t) (iblk m c 3 t) (iblk m c 2 t) r k).trans ?_
  rw [Blocks.wqBlock_apply m c t r k O hO, Blocks.maskBlock_apply m c t r k O hO, Blocks.thetaBlock_apply m c t r k O hO,
    Blocks.qzeroBlock_apply m c t r O hO, Blocks.qscaleBlock_apply m c t r O hO]
  rfl

/-- After every point the scratch holds its column tile's rows of the effective weight. -/
theorem scratch_at (c : Dev nD) : ∀ (n : ℕ) (h : n < cfg0.N) (r : Fin 256) (k : Fin 4096) (O : Fin 4096),
    O.val = 256 * (n / 32) + r.val → (outsAt0 m c n h).2 (ix2 r k) = wk m c O k
  | 0, h, r, k, O, hO => by
    rw [outsAt0_A m c ⟨0, h⟩ rfl]
    dsimp only
    rw [Pieces.scratch_first]
    exact tile_at m c ⟨0, h⟩ r k O hO
  | n + 1, h, r, k, O, hO => by
    by_cases h0 : (n + 1) % 32 = 0
    · rw [outsAt0_A m c ⟨n + 1, h⟩ h0]
      dsimp only
      rw [Pieces.scratch_first]
      exact tile_at m c ⟨n + 1, h⟩ r k O hO
    · rw [outsAt0_B m c ⟨n + 1, h⟩ h0]
      dsimp only
      unfold sout0_B_0
      show (outsAt0 m c n _).2 (ix2 r k) = _
      exact scratch_at c n _ r k O (by omega)

/-- After every point the output tile is the token block times the scratch as the point leaves it, plus the bias block. -/
theorem out_eq (c : Dev nD) (t : Fin cfg0.N) :
    (outsAt0 m c t.val t.isLt).1
      = k0_pay2 (F := Ideal) (iblk m c 0 t) ((outsAt0 m c t.val t.isLt).2) (iblk m c 6 t) := by
  by_cases h0 : t.val % 32 = 0
  · rw [outsAt0_A m c t h0]
    dsimp only
    rw [Pieces.out_first, Pieces.scratch_first]
  · rw [outsAt0_B m c t h0]
    dsimp only
    rw [Pieces.out_later]
    rfl

/-- The output tile after point `t`, at `(p, q)`. -/
theorem out_at (c : Dev nD) (t : Fin cfg0.N) (p q : Fin 256) (P : Fin 8192) (O : Fin 4096)
    (hP : P.val = 256 * (t.val % 32) + p.val) (hO : O.val = 256 * (t.val / 32) + q.val) :
    (outsAt0 m c t.val t.isLt).1 (ix2 p q) = yk m c P O := by
  rw [out_eq m c t]
  refine (Pay.outTile_apply (iblk m c 0 t) ((outsAt0 m c t.val t.isLt).2) (iblk m c 6 t) p q).trans ?_
  unfold yk
  rw [Blocks.biasBlock_apply m c t q O hO]
  refine congrArg (· + bia m c (ix1 O)) (Finset.sum_congr rfl fun k _ => ?_)
  rw [Blocks.xBlock_apply m c t p k P hP, scratch_at m c t.val t.isLt q k O hO]

end Cert.KernelIdeal.Inv

end
-- ==== Proof.KFinal.lean ====
/-
  The result array after the run, and the program's result.

  Every grid point writes its output tile back: tile `(t mod 32, t / 32)` of the [8192, 4096] array.  What
  point `t` writes is its block of ONE array `Y`, `Y(P, O) = Σₖ x(P, k) · W(O, k) + bias(O)`, and the 512 tiles
  cover the array (row `P`, column `O` is under point `32 · (O / 256) + P / 256`): the array ends at `Y`.  The host then
  views it as [4, 2048, 4096]: entry `(b, s, o)` is row `b · 2048 + s`, column `o`.  Read over the launch arrays —
  the token view row `b · 2048 + s` is token `(b, s)`, the widened mask word is nonzero exactly where the mask bit is
  set — this is the specification.
-/
import proofs.«131274_j10977936408699_1_alg».proof.Proof.KInv

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.ResuLinear
open Idealize.ShloMosaic.Pipeline (Dat)

variable (m : (ℓ : Loc nD τ sig) → Buf (Elt Ideal) ℓ) (ρ : Dev nD → PrngReg)

/-- The [8192, 4096] result array. -/
def Y (c : Dev nD) : S8192x4096.Idx → EReal := fun i => Inv.yk m c (i 0) (i 1)

/-- What point `t` writes back is its block of `Y`. -/
theorem flushed_eq (c : Dev nD) (t : Fin cfg0.N) :
    (dats m 0 c).flushed 7 t = ((cfg0.win 7).blk t).view.read (Elt Ideal) (Y m c) := by
  show (cfg0.win 7).cut (grid0.coords t) ((dats m 0 c).after 7 t) = _
  rw [after0_7]
  funext j
  obtain ⟨-, -, -, -, -, -, -, -, -, -, -, -, -, e0, e1⟩ := Blocks.idx_facts t
  have hp : (j 0).val < 256 := (j 0).isLt
  have hq : (j 1).val < 256 := (j 1).isLt
  have hN : t.val < 512 := lt_of_lt_of_eq t.isLt N_0
  show (outsAt0 m c t.val t.isLt).1 j = Y m c (((cfg0.win 7).blk t).view.emb j)
  refine (congrArg (outsAt0 m c t.val t.isLt).1 (eq_ix2 j)).trans ?_
  refine (Inv.out_at m c t (j 0) (j 1) ⟨256 * (t.val % 32) + (j 0).val, by omega⟩
    ⟨256 * (t.val / 32) + (j 1).val, by omega⟩ rfl rfl).trans ?_
  show Inv.yk m c _ _ = Inv.yk m c ((((cfg0.win 7).blk t).view.emb j) 0) ((((cfg0.win 7).blk t).view.emb j) 1)
  refine congrArg₂ (Inv.yk m c) (Fin.ext ?_) (Fin.ext ?_)
  · show 256 * (t.val % 32) + (j 0).val = win0_7.index t (0 : Fin 2) * 256 + 1 * (j 0).val
    rw [e0]; omega
  · show 256 * (t.val / 32) + (j 1).val = win0_7.index t (1 : Fin 2) * 256 + 1 * (j 1).val
    rw [e1]; omega

/-- An index of the array is in point `t`'s block iff each coordinate is in the block's range on its axis. -/
theorem mem_blk (t : Fin cfg0.N) (i : S8192x4096.Idx) :
    i ∈ ((cfg0.win 7).blk t).view.set ↔ ∀ a : Fin 2, win0_7.index t a * S256x256.size a ≤ (i a).val
      ∧ (i a).val < win0_7.index t a * S256x256.size a + S256x256.size a := by
  show i ∈ ((View.whole main_v2).slice (win0_7.rect t)).set ↔ _
  rw [View.set_slice_whole, Rect.mem_set_unit]
  exact Iff.rfl

/-- Every index of the array is under some point's tile. -/
theorem cover (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  have hN : cfg0.N = 512 := N_0
  obtain ⟨t, ht⟩ : ∃ t : Fin cfg0.N, t.val = 32 * ((i 1).val / 256) + (i 0).val / 256 :=
    ⟨⟨32 * ((i 1).val / 256) + (i 0).val / 256, by rw [hN]; omega⟩, rfl⟩
  refine ⟨t, flush0_7 t, ?_⟩
  rw [mem_blk]
  obtain ⟨-, -, -, -, -, -, -, -, -, -, -, -, -, e0, e1⟩ := Blocks.idx_facts t
  intro a
  match a with
  | ⟨0, _⟩ =>
    show win0_7.index t (0 : Fin 2) * 256 ≤ (i 0).val ∧ (i 0).val < win0_7.index t (0 : Fin 2) * 256 + 256
    rw [e0, ht]; omega
  | ⟨1, _⟩ =>
    show win0_7.index t (1 : Fin 2) * 256 ≤ (i 1).val ∧ (i 1).val < win0_7.index t (1 : Fin 2) * 256 + 256
    rw [e1, ht]; omega

/-- The result array after the run. -/
theorem final (c : Dev nD) : (dats m 0 c).arrAt 7 cfg0.N = Y m c :=
  (dats m 0 c).arrAt_eq_of_cover 7 (Y m c) (fun t _ => flushed_eq m c t) cover

/-- The host's [4, 2048, 4096] view of it is the program's result. -/
theorem tail_eq (c : Dev nD) :
    Pipeline.afterTail₀ cfgs (dats m) 0 (V0 m) [hostOps1] c main_v3
      = shapeCast S4x2048x4096 (Y m c) shapeCasts_S8192x4096_S4x2048x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = Y m c :=
    (Pipeline.withArrays_arr spec0 launch0.win.arr_inj c _ _ 7).trans (final m c)
  exact congrArg (fun z : S8192x4096.Idx → EReal => shapeCast S4x2048x4096 z shapeCasts_S8192x4096_S4x2048x4096) e

/-- The effective weight over the launch arrays: the widened word is nonzero exactly where the mask bit is set. -/
theorem wk_eq (c : Dev nD) (o k : Fin 4096) :
    Inv.wk m c o k = weff (m ((c : Thread nD τ).loc main_arg1)) (m ((c : Thread nD τ).loc main_arg2))
      (m ((c : Thread nD τ).loc main_arg3)) (m ((c : Thread nD τ).loc main_arg4)) (m ((c : Thread nD τ).loc main_arg5)) o k := by
  unfold Inv.wk weff
  rw [Blocks.V_maskWords m c, V_main_arg1 m c, V_main_arg2 m c, V_main_arg3 m c, V_main_arg4 m c]
  exact select_widened _ _ _

/-- The program's result is the specification of the launch arrays. -/
theorem result_eq (c : Dev nD) :
    shapeCast S4x2048x4096 (Y m c) shapeCasts_S8192x4096_S4x2048x4096
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  refine (RowBlocks.shapeCast_split_apply (Y m c) shapeCasts_S8192x4096_S4x2048x4096 b s o
    ⟨b.val * 2048 + s.val, by omega⟩ rfl).trans ?_
  rw [out_apply]
  show Inv.yk m c ⟨b.val * 2048 + s.val, _⟩ o = _
  unfold Inv.yk outAt
  rw [show Inv.bia m c (ix1 o) = m ((c : Thread nD τ).loc main_arg6) (ix1 o) from congrFun (V_main_arg6 m c) (ix1 o)]
  refine congrArg (· + m ((c : Thread nD τ).loc main_arg6) (ix1 o)) (Finset.sum_congr rfl fun k _ => ?_)
  rw [wk_eq]
  refine congrArg (· * _) ?_
  show V m c main_v0 (ix2 _ k) = _
  rw [Blocks.V_tokens m c]
  exact RowBlocks.shapeCast_merge_apply _ shapeCasts_S4x2048x4096_S8192x4096 b s k _ rfl

/-- The run, read: the result at the specification of the launch arrays, the arguments unchanged. -/
theorem run : θ_run defs (onTc (τ := τ) (main (F := Ideal))) ⟨m, fun _ => 0, ρ⟩ fun r => ∀ c : Dev nD,
      r.2.mem ((c.tc : Thread nD τ).loc main_v3)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v3 (Pipeline.mem_restRefs_of main_v3 (by decide) (by decide))).trans (tail_eq m c)).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.Final

end
-- ==== Proof.RefG.lean ====
/-
  The reference computes the specification.

  The reference blends with the mask read as a number: `m · d + (1 − m) · theta`, `d` the dequantized weight with
  the channel's zero point and scale broadcast along the features; then contracts `x` with the blended weight over
  the feature axis and adds the bias broadcast over the tokens.  The blend is the selection by the mask bit on the
  extended reals, so index by index this is the specification's sum.
-/
import proofs.«131274_j10977936408699_1_alg».proof.Proof.Gen.ReferenceIdeal.Read
import proofs.«131274_j10977936408699_1_alg».proof.Proof.Spec

noncomputable section

open scoped BigOperators

namespace Cert.ReferenceIdeal.RefValue

open Cert.ReferenceIdeal Cert.ReferenceIdeal.Read Idealize.ShloMosaic Idealize.ShloMosaic.ValueIdx Cert.ResuLinear

/-- The blended weight at `(o, k)` is the effective weight. -/
theorem blended_apply (x1 : (⟨S4096x4096, .i32⟩ : BufTy).Contents (Elt Ideal)) (x2 x3 : (⟨S4096x1, .f32⟩ : BufTy).Contents (Elt Ideal))
    (x4 : (⟨S4096x4096, .f32⟩ : BufTy).Contents (Elt Ideal)) (x5 : (⟨S4096x4096, .i1⟩ : BufTy).Contents (Elt Ideal))
    (o k : Fin 4096) :
    val_main_v10 (F := Ideal) x1 x2 x3 x4 x5 (ix2 o k) = weff x1 x2 x3 x4 x5 o k := by
  rw [val_main_v10_apply, val_main_v6_apply, val_main_v9_apply, val_main_v8_apply, val_main_v7_apply, val_main_cst_apply,
    val_main_v5_apply, val_main_v4_apply, val_main_v2_apply, val_main_v3_apply, val_main_v1_apply, val_main_v0_apply]
  have e1 : idx_main_v1 (ix2 o k) = ix2 o (0 : Fin 1) := funext fun a => Fin.ext (by
    match a with
    | ⟨0, _⟩ => rfl
    | ⟨1, _⟩ => rfl)
  have e3 : idx_main_v3 (ix2 o k) = ix2 o (0 : Fin 1) := funext fun a => Fin.ext (by
    match a with
    | ⟨0, _⟩ => rfl
    | ⟨1, _⟩ => rfl)
  rw [e1, e3]
  exact blend_eq_pick (x5 (ix2 o k)) (deq (x1 (ix2 o k)) (x3 (ix2 o (0 : Fin 1))) (x2 (ix2 o (0 : Fin 1)))) (x4 (ix2 o k))

/-- The reference's result array is the specification's. -/
theorem result_eq (x0 : (⟨S4x2048x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S4096x4096, .f32⟩ : BufTy).Contents (Elt Ideal))
    (x5 : (⟨S4096x4096, .i1⟩ : BufTy).Contents (Elt Ideal)) (x6 : (⟨S4096, .f32⟩ : BufTy).Contents (Elt Ideal)) :
    val_main_v14 (F := Ideal) x0 x1 x2 x3 x4 x5 x6 = out x0 x1 x2 x3 x4 x5 x6 := by
  funext i
  obtain ⟨b, s, o, rfl⟩ : ∃ (b : Fin 4) (s : Fin 2048) (o : Fin 4096), i = ix3 b s o := ⟨i 0, i 1, i 2, eq_ix3 i⟩
  rw [val_main_v14_apply, val_main_v11_apply, val_main_v13_apply, val_main_v12_apply, out_apply]
  unfold outAt
  have el : ∀ k : Fin 4096, lidx_main_v11 (ix3 b s o) k = ix3 b s k := fun k => funext fun a => Fin.ext (by
    match a with
    | ⟨0, _⟩ => rfl
    | ⟨1, _⟩ => rfl
    | ⟨2, _⟩ => rfl)
  have er : ∀ k : Fin 4096, ridx_main_v11 (ix3 b s o) k = ix2 o k := fun k => funext fun a => Fin.ext (by
    match a with
    | ⟨0, _⟩ => rfl
    | ⟨1, _⟩ => rfl)
  have eb : idx_main_v12 (idx_main_v13 (ix3 b s o)) = ix1 o := funext fun a => Fin.ext (by
    match a with
    | ⟨0, _⟩ => rfl)
  rw [eb]
  refine congrArg (· + x6 (ix1 o)) (Finset.sum_congr rfl fun k _ => ?_)
  rw [el, er, blended_apply]

end Cert.ReferenceIdeal.RefValue

end
-- ==== Proof.lean ====
/-
  A quantized linear layer with a masked weight, against its plain reference, on the extended reals.

  Output channel `o` has at input feature `k` the effective weight
    W(o, k) = (wq(o, k) − qzero(o)) · qscale(o)  where mask(o, k) is set,   theta(o, k)  where it is not,
  and the result at token `(b, s)` is  Y(b, s, o) = Σₖ x(b, s, k) · W(o, k) + bias(o)   (Proof/Spec.lean).

  The kernel walks a 16 × 32 grid of [256, 256] output tiles, column tiles outermost.  At the first row tile of
  each column tile it builds the [256, 4096] weight tile by SELECTING on the mask and keeps it in a buffer it
  carries across the 32 row tiles; at every point it contracts the token block with the carried tile over the
  feature axis and adds the bias.  By induction on the grid point the carried tile always holds the current column
  tile's rows of `W` (Proof/KInv.lean), so each output tile is its block of `Y` viewed [8192, 4096], the tiles
  cover that array, and the host's final view is `Y` (Proof/KFinal.lean).

  The reference BLENDS, `m · d + (1 − m) · theta` with the mask bit read as 0 or 1, and contracts once.  On the
  extended reals `0 · y = 0` and `1 · y = y` for every `y`, so the blend is the selection and the reference
  computes `Y` too (Proof/RefG.lean).  A change of float format is the identity and a sum does not depend on its
  grouping there, so neither the narrow format of the matrix operands nor the tiling matters.  No input needs to
  be finite for any of this: the precondition is not opened.
-/
import proofs.«131274_j10977936408699_1_alg».proof.Defs
import proofs.«131274_j10977936408699_1_alg».proof.Proof.Gen.Kernel
import proofs.«131274_j10977936408699_1_alg».proof.Proof.Gen.Kernel.Frame
import proofs.«131274_j10977936408699_1_alg».proof.Proof.Gen.KernelIdeal
import proofs.«131274_j10977936408699_1_alg».proof.Proof.Gen.KernelIdeal.Frame
import proofs.«131274_j10977936408699_1_alg».proof.Proof.Gen.ReferenceIdeal
import proofs.«131274_j10977936408699_1_alg».proof.Proof.Gen.Pre_finite_inputs
import proofs.«131274_j10977936408699_1_alg».proof.Proof.Gen.ReferenceIdeal.Run
import proofs.«131274_j10977936408699_1_alg».proof.Proof.Gen.ReferenceIdeal.Read
import proofs.«131274_j10977936408699_1_alg».proof.Proof.KFinal
import proofs.«131274_j10977936408699_1_alg».proof.Proof.RefG

noncomputable section

namespace Cert.Proof

open Idealize.ShloMosaic Idealize.SL.Sem

/-- The kernel as printed runs and keeps its arguments. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end at the specification of their (agreeing) arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
